-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2400 : Shape := ⟨2, ![1, 2400]⟩
abbrev S5x2400 : Shape := ⟨2, ![5, 2400]⟩
abbrev S50000x2400 : Shape := ⟨2, ![50000, 2400]⟩
abbrev S_ : Shape := ⟨0, ![]⟩

class Facts : Prop where
  bcast_S_S1x2400 : S_.BroadcastsInDim S1x2400 (![] : Fin 0 → Fin S1x2400.rank)
  reducesTo_S1x2400_S_d0_1 : S1x2400.ReducesTo [0, 1] S_
  h_S_ : 0 < S_.numel
  bcast_S_S5x2400 : S_.BroadcastsInDim S5x2400 (![] : Fin 0 → Fin S5x2400.rank)
  reducesTo_S5x2400_S_d0_1 : S5x2400.ReducesTo [0, 1] S_
  bcast_S_S50000x2400 : S_.BroadcastsInDim S50000x2400 (![] : Fin 0 → Fin S50000x2400.rank)
  reducesTo_S50000x2400_S_d0_1 : S50000x2400.ReducesTo [0, 1] S_

variable [Facts]

def fn {F : FTy → Type} [FloatOps F] (main_arg0 : FVec F S1x2400 .f32) (main_arg1 : FVec F S5x2400 .f32) (main_arg2 : FVec F S50000x2400 .f32) : IVec S_ 1 :=
  let main_v0 : FVec F S1x2400 .f32 := Host.absf main_arg0
  let main_cst : FVec F S_ .f32 := constant S_ .f32 0x7F800000#32
  let main_v1 : FVec F S1x2400 .f32 := broadcastInDim S1x2400 ![] bcast_S_S1x2400 main_cst
  let main_v2 : IVec S1x2400 1 := cmpf .olt main_v0 main_v1
  let main_c : IVec S_ 1 := constantI S_ 1 1#1
  let main_v3 : IVec S_ 1 := (fun x v => Host.reduce IntOp.andi x v reducesTo_S1x2400_S_d0_1 h_S_) main_v2 main_c
  let main_v4 : FVec F S5x2400 .f32 := Host.absf main_arg1
  let main_cst_0 : FVec F S_ .f32 := constant S_ .f32 0x7F800000#32
  let main_v5 : FVec F S5x2400 .f32 := broadcastInDim S5x2400 ![] bcast_S_S5x2400 main_cst_0
  let main_v6 : IVec S5x2400 1 := cmpf .olt main_v4 main_v5
  let main_c_1 : IVec S_ 1 := constantI S_ 1 1#1
  let main_v7 : IVec S_ 1 := (fun x v => Host.reduce IntOp.andi x v reducesTo_S5x2400_S_d0_1 h_S_) main_v6 main_c_1
  let main_v8 : IVec S_ 1 := andi main_v3 main_v7
  let main_v9 : FVec F S50000x2400 .f32 := Host.absf main_arg2
  let main_cst_2 : FVec F S_ .f32 := constant S_ .f32 0x7F800000#32
  let main_v10 : FVec F S50000x2400 .f32 := broadcastInDim S50000x2400 ![] bcast_S_S50000x2400 main_cst_2
  let main_v11 : IVec S50000x2400 1 := cmpf .olt main_v9 main_v10
  let main_c_3 : IVec S_ 1 := constantI S_ 1 1#1
  let main_v12 : IVec S_ 1 := (fun x v => Host.reduce IntOp.andi x v reducesTo_S50000x2400_S_d0_1 h_S_) main_v11 main_c_3
  let main_v13 : IVec S_ 1 := andi main_v8 main_v12
  main_v13
-- ==== Kernel.lean ====
abbrev S1x2400 : Shape := ⟨2, ![1, 2400]⟩
abbrev S5x2400 : Shape := ⟨2, ![5, 2400]⟩
abbrev S50000x2400 : Shape := ⟨2, ![50000, 2400]⟩
abbrev S_ : Shape := ⟨0, ![]⟩
abbrev S5 : Shape := ⟨1, ![5]⟩
abbrev S1x5 : Shape := ⟨2, ![1, 5]⟩
abbrev S10000x5 : Shape := ⟨2, ![10000, 5]⟩
abbrev S50000 : Shape := ⟨1, ![50000]⟩
abbrev S50000x1 : Shape := ⟨2, ![50000, 1]⟩
abbrev S400x128 : Shape := ⟨2, ![400, 128]⟩
abbrev S1000x2400 : Shape := ⟨2, ![1000, 2400]⟩
abbrev S1000x1 : Shape := ⟨2, ![1000, 1]⟩
abbrev S8x128 : Shape := ⟨2, ![8, 128]⟩
abbrev S1000 : Shape := ⟨1, ![1000]⟩
abbrev S1 : Shape := ⟨1, ![1]⟩
abbrev S1x1 : Shape := ⟨2, ![1, 1]⟩

abbrev nBuf : Space → Nat
  | .hbm => 19
  | .vmem => 7
  | .smem => 0
  | _ => 0

abbrev bufTy : (tb : Table) → Fin (tcTables nBuf tb) → BufTy
  | .hbm, ⟨0, _⟩ => ⟨S1x2400, .f32⟩
  | .hbm, ⟨1, _⟩ => ⟨S5x2400, .f32⟩
  | .hbm, ⟨2, _⟩ => ⟨S50000x2400, .f32⟩
  | .hbm, ⟨3, _⟩ => ⟨S5x2400, .f32⟩
  | .hbm, ⟨4, _⟩ => ⟨S5x2400, .f32⟩
  | .hbm, ⟨5, _⟩ => ⟨S_, .f32⟩
  | .hbm, ⟨6, _⟩ => ⟨S5x2400, .f32⟩
  | .hbm, ⟨7, _⟩ => ⟨S5x2400, .f32⟩
  | .hbm, ⟨8, _⟩ => ⟨S5x2400, .f32⟩
  | .hbm, ⟨9, _⟩ => ⟨S_, .f32⟩
  | .hbm, ⟨10, _⟩ => ⟨S5, .f32⟩
  | .hbm, ⟨11, _⟩ => ⟨S5, .f32⟩
  | .hbm, ⟨12, _⟩ => ⟨S1x5, .f32⟩
  | .hbm, ⟨13, _⟩ => ⟨S10000x5, .f32⟩
  | .hbm, ⟨14, _⟩ => ⟨S50000, .f32⟩
  | .hbm, ⟨15, _⟩ => ⟨S50000x1, .f32⟩
  | .hbm, ⟨16, _⟩ => ⟨S400x128, .f32⟩
  | .hbm, ⟨17, _⟩ => ⟨S_, .f32⟩
  | .hbm, ⟨18, _⟩ => ⟨S_, .f32⟩
  | .local _ .vmem, ⟨0, _⟩ => ⟨S1x2400, .f32⟩
  | .local _ .vmem, ⟨1, _⟩ => ⟨S1000x2400, .f32⟩
  | .local _ .vmem, ⟨2, _⟩ => ⟨S1000x2400, .f32⟩
  | .local _ .vmem, ⟨3, _⟩ => ⟨S1000x1, .f32⟩
  | .local _ .vmem, ⟨4, _⟩ => ⟨S1000x1, .f32⟩
  | .local _ .vmem, ⟨5, _⟩ => ⟨S8x128, .f32⟩
  | .local _ .vmem, ⟨6, _⟩ => ⟨S8x128, .f32⟩
  | _, _ => ⟨S1x2400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2400 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1000x2400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1x2400_S5x2400_0_1 : S1x2400.BroadcastsInDim S5x2400 (![0, 1] : Fin 2 → Fin S5x2400.rank)
  bcast_S_S5x2400 : S_.BroadcastsInDim S5x2400 (![] : Fin 0 → Fin S5x2400.rank)
  reducesTo_S5x2400_S5_d1 : S5x2400.ReducesTo [1] S5
  h_S_ : 0 < S_.numel
  shapeCasts_S5_S1x5 : S5.ShapeCasts S1x5
  bcast_S1x5_S10000x5_0_1 : S1x5.BroadcastsInDim S10000x5 (![0, 1] : Fin 2 → Fin S10000x5.rank)
  shapeCasts_S10000x5_S50000 : S10000x5.ShapeCasts S50000
  shapeCasts_S50000_S50000x1 : S50000.ShapeCasts S50000x1
  inb_S1x2400_S1x2400_0_0 : ∀ a, (![0, 0] : Fin 2 → Nat) a + S1x2400.size a ≤ S1x2400.size a
  h_S1x2400 : 0 < S1x2400.numel
  inb_S1000x2400_S1000x2400_0_0 : ∀ a, (![0, 0] : Fin 2 → Nat) a + S1000x2400.size a ≤ S1000x2400.size a
  h_S1000x2400 : 0 < S1000x2400.numel
  broadcasts_S1x2400_S1000x2400 : S1x2400.Broadcasts S1000x2400
  reduces_S1000x2400_S1000 : S1000x2400.Reduces [1] S1000
  shapeCasts_S1000_S1000x1 : S1000.ShapeCasts S1000x1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  reduces_S1000x1_S1 : S1000x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S400x128_S_d0_1 : S400x128.ReducesTo [0, 1] S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2400.size a ≤ S1x2400.size a
  hwx0_0 : ∀ i : grid0.Coords, EltTy.bits .f32 = 32 ∨ (Rect.block (s := S1x2400) S1x2400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x2400.size a ≤ S50000x2400.size a
  hwx0_1 : ∀ i : grid0.Coords, EltTy.bits .f32 = 32 ∨ (Rect.block (s := S50000x2400) S1000x2400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S50000x1.size a
  hwx0_2 : ∀ i : grid0.Coords, EltTy.bits .f32 = 32 ∨ (Rect.block (s := S50000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S400x128.size a
  hwx0_3 : ∀ i : grid0.Coords, EltTy.bits .f32 = 32 ∨ (Rect.block (s := S400x128) S8x128.size (cc0_transform_3 i) (hinb0_3 i)).WholeWords (EltTy.packing .f32)

variable [Facts₀]

abbrev win0_0 : Pipeline.Window sig grid0 :=
  Pipeline.Window.ofSpec (Memref.whole main_arg0) S1x2400.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x2400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x2400 : Shape := ⟨2, ![1, 2400]⟩
abbrev S5x2400 : Shape := ⟨2, ![5, 2400]⟩
abbrev S50000x2400 : Shape := ⟨2, ![50000, 2400]⟩
abbrev S_ : Shape := ⟨0, ![]⟩
abbrev S5 : Shape := ⟨1, ![5]⟩
abbrev S10000x5x2400 : Shape := ⟨3, ![10000, 5, 2400]⟩
abbrev S1x1x2400 : Shape := ⟨3, ![1, 1, 2400]⟩
abbrev S10000x5 : Shape := ⟨2, ![10000, 5]⟩
abbrev S1x5 : Shape := ⟨2, ![1, 5]⟩

abbrev nBuf : Space → Nat
  | .hbm => 34
  | .vmem => 0
  | .smem => 0
  | _ => 0

abbrev bufTy : (tb : Table) → Fin (tcTables nBuf tb) → BufTy
  | .hbm, ⟨0, _⟩ => ⟨S1x2400, .f32⟩
  | .hbm, ⟨1, _⟩ => ⟨S5x2400, .f32⟩
  | .hbm, ⟨2, _⟩ => ⟨S50000x2400, .f32⟩
  | .hbm, ⟨3, _⟩ => ⟨S5x2400, .f32⟩
  | .hbm, ⟨4, _⟩ => ⟨S5x2400, .f32⟩
  | .hbm, ⟨5, _⟩ => ⟨S_, .f32⟩
  | .hbm, ⟨6, _⟩ => ⟨S5x2400, .f32⟩
  | .hbm, ⟨7, _⟩ => ⟨S5x2400, .f32⟩
  | .hbm, ⟨8, _⟩ => ⟨S5x2400, .f32⟩
  | .hbm, ⟨9, _⟩ => ⟨S_, .f32⟩
  | .hbm, ⟨10, _⟩ => ⟨S5, .f32⟩
  | .hbm, ⟨11, _⟩ => ⟨S5, .f32⟩
  | .hbm, ⟨12, _⟩ => ⟨S10000x5x2400, .f32⟩
  | .hbm, ⟨13, _⟩ => ⟨S1x1x2400, .f32⟩
  | .hbm, ⟨14, _⟩ => ⟨S10000x5x2400, .f32⟩
  | .hbm, ⟨15, _⟩ => ⟨S10000x5x2400, .f32⟩
  | .hbm, ⟨16, _⟩ => ⟨S_, .f32⟩
  | .hbm, ⟨17, _⟩ => ⟨S10000x5x2400, .f32⟩
  | .hbm, ⟨18, _⟩ => ⟨S10000x5x2400, .f32⟩
  | .hbm, ⟨19, _⟩ => ⟨S10000x5x2400, .f32⟩
  | .hbm, ⟨20, _⟩ => ⟨S_, .f32⟩
  | .hbm, ⟨21, _⟩ => ⟨S10000x5, .f32⟩
  | .hbm, ⟨22, _⟩ => ⟨S10000x5, .f32⟩
  | .hbm, ⟨23, _⟩ => ⟨S1x5, .f32⟩
  | .hbm, ⟨24, _⟩ => ⟨S10000x5, .f32⟩
  | .hbm, ⟨25, _⟩ => ⟨S10000x5, .f32⟩
  | .hbm, ⟨26, _⟩ => ⟨S_, .f32⟩
  | .hbm, ⟨27, _⟩ => ⟨S10000x5, .f32⟩
  | .hbm, ⟨28, _⟩ => ⟨S10000x5, .f32⟩
  | .hbm, ⟨29, _⟩ => ⟨S_, .f32⟩
  | .hbm, ⟨30, _⟩ => ⟨S10000x5, .f32⟩
  | .hbm, ⟨31, _⟩ => ⟨S10000x5, .f32⟩
  | .hbm, ⟨32, _⟩ => ⟨S_, .f32⟩
  | .hbm, ⟨33, _⟩ => ⟨S_, .f32⟩
  | _, _ => ⟨S1x2400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_call0_cst : Ref sig .tc := ⟨.hbm, 29, rfl⟩
abbrev main_call0_v0 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S1x2400_S5x2400_0_1 : S1x2400.BroadcastsInDim S5x2400 (![0, 1] : Fin 2 → Fin S5x2400.rank)
  bcast_S_S5x2400 : S_.BroadcastsInDim S5x2400 (![] : Fin 0 → Fin S5x2400.rank)
  reducesTo_S5x2400_S5_d1 : S5x2400.ReducesTo [1] S5
  h_S_ : 0 < S_.numel
  shapeCasts_S50000x2400_S10000x5x2400 : S50000x2400.ShapeCasts S10000x5x2400
  bcast_S1x2400_S1x1x2400_1_2 : S1x2400.BroadcastsInDim S1x1x2400 (![1, 2] : Fin 2 → Fin S1x1x2400.rank)
  bcast_S1x1x2400_S10000x5x2400_0_1_2 : S1x1x2400.BroadcastsInDim S10000x5x2400 (![0, 1, 2] : Fin 3 → Fin S10000x5x2400.rank)
  bcast_S_S10000x5x2400 : S_.BroadcastsInDim S10000x5x2400 (![] : Fin 0 → Fin S10000x5x2400.rank)
  reducesTo_S10000x5x2400_S10000x5_d2 : S10000x5x2400.ReducesTo [2] S10000x5
  bcast_S5_S1x5_1 : S5.BroadcastsInDim S1x5 (![1] : Fin 1 → Fin S1x5.rank)
  bcast_S1x5_S10000x5_0_1 : S1x5.BroadcastsInDim S10000x5 (![0, 1] : Fin 2 → Fin S10000x5.rank)
  bcast_S_S10000x5 : S_.BroadcastsInDim S10000x5 (![] : Fin 0 → Fin S10000x5.rank)
  reducesTo_S10000x5_S_d0_1 : S10000x5.ReducesTo [0, 1] S_

variable [Facts₀]

class Facts : Prop extends Facts₀ where

variable [Facts]
-- ==== Proof.LibBlockSum.lean ====
/-
  Regrouping a finite sum into consecutive blocks.

  A sum over `Fin (n * b)` is the sum, over the `n` blocks, of each block's `b` consecutive terms: entry
  `q + b * j` is term `q` of block `j`. Only commutativity and associativity of `+` are used, so the law
  holds in every additive commutative monoid — in particular on the extended reals, where regrouping a sum
  needs no finiteness of its terms.
-/
import Mathlib.Data.Fintype.BigOperators
import Mathlib.Logic.Equiv.Fin.Basic

namespace Cert.BlockSum

/-- A sum over `Fin (n * b)` split into `n` consecutive blocks of length `b`. -/
theorem sum_blocks {M : Type*} [AddCommMonoid M] (n b : ℕ) (f : Fin (n * b) → M) :
    ∑ k, f k = ∑ j : Fin n, ∑ q : Fin b, f (finProdFinEquiv (j, q)) := by
  rw [← Fintype.sum_prod_type' (fun j q => f (finProdFinEquiv (j, q)))]
  exact (Equiv.sum_comp finProdFinEquiv f).symm

/-- The position of term `q` of block `j`. -/
theorem finProdFinEquiv_val {n b : ℕ} (j : Fin n) (q : Fin b) :
    (finProdFinEquiv (j, q)).val = q.val + b * j.val := rfl

end Cert.BlockSum
-- ==== Proof.Spec.lean ====
/-
  The mathematics both programs compute, written once over the extended reals.

  For an anchor row `A`, five positive rows `P` and 50000 negative rows `N` (2400 columns each), with the
  shift `ε` both programs add to every difference:

    dap p = √ Σ_d (A d − P p d + ε)²          the anchor's distance to positive row p
    dan r = √ Σ_d (A d − N r d + ε)²          the anchor's distance to negative row r
    hinge r = max (dap (r mod 5) − dan r + 1) 0
    loss = Σ_r hinge r                         over the 50000 negative rows.

  The reference sums the hinge terms as a 10000 × 5 table (row r = 5c + p sits at (c, p)); the kernel sums them
  in 50 blocks of 1000 consecutive rows, writes each block's sum, scaled by 2⁻¹⁰, into every one of the 8 × 128
  cells of that block's tile, and adds up all 400 × 128 cells. Regrouping a finite sum uses only that addition
  commutes and associates, and 1024 copies of x · 2⁻¹⁰ add up to x for EVERY extended real x (both infinities
  included), so the two totals agree with no finiteness assumption.
-/
import Idealize.ShloMosaic.PureOps.Ideal
import Idealize.ShloMosaic.PureOps.Ideal.Laws
import Idealize.ShloMosaic.Lib.ValueIdx
import proofs.«116871_j14851996910048_2_alg».proof.Proof.LibBlockSum

noncomputable section

open scoped BigOperators

namespace Cert.Triplet

open Idealize.ShloMosaic Idealize.ShloMosaic.ValueIdx

/-- The shift added to every difference (the f32 nearest 10⁻⁶, the same in both programs). -/
def eps : EReal := Ideal.ofBits .f32 0x358637BD#32
/-- The margin (the f32 word of 1.0, the same in both programs). -/
def margin : EReal := Ideal.ofBits .f32 0x3F800000#32
/-- The kernel's scale, the f32 word of 2⁻¹⁰. -/
def scale : EReal := Ideal.ofBits .f32 0x3A800000#32

/-- The scale word denotes exactly 1/1024. -/
theorem scale_eq : scale = ((1 / 1024 : ℝ) : EReal) := by
  unfold scale
  simp [Ideal.ofBits, Ideal.ieee, -EReal.coe_mul]
  norm_num

/-- 1024 copies of `x · 2⁻¹⁰` add up to `x`, at every extended real. -/
theorem scale_law (x : EReal) : (1024 : ℕ) • (x * scale) = x := by
  rw [EReal.nsmul_eq_mul, scale_eq, mul_comm x, ← mul_assoc]
  have h : ((1024 : ℕ) : EReal) * ((1 / 1024 : ℝ) : EReal) = 1 := by
    have : ((1024 : ℕ) : EReal) = ((1024 : ℝ) : EReal) := by norm_cast
    rw [this, ← EReal.coe_mul]
    norm_num
  rw [h, one_mul]

variable (A : (⟨2, ![1, 2400]⟩ : Shape).Idx → EReal) (P : (⟨2, ![5, 2400]⟩ : Shape).Idx → EReal)
  (N : (⟨2, ![50000, 2400]⟩ : Shape).Idx → EReal)

/-- The anchor's distance to positive row `p`. -/
def dap (p : Fin 5) : EReal :=
  Ideal.sqrt (∑ d : Fin 2400, (A (ix2 (0 : Fin 1) d) - P (ix2 p d) + eps) * (A (ix2 (0 : Fin 1) d) - P (ix2 p d) + eps))

/-- The anchor's distance to negative row `r`. -/
def dan (r : Fin 50000) : EReal :=
  Ideal.sqrt (∑ d : Fin 2400, (A (ix2 (0 : Fin 1) d) - N (ix2 r d) + eps) * (A (ix2 (0 : Fin 1) d) - N (ix2 r d) + eps))

/-- Negative row `r`'s hinge term, against the positive row `r mod 5`. -/
def hinge (r : Fin 50000) : EReal :=
  max (dap A P ⟨r.val % 5, Nat.mod_lt _ (by decide)⟩ - dan A N r + margin) 0

/-- The loss: the sum of the 50000 hinge terms. -/
def loss : EReal := ∑ r : Fin 50000, hinge A P N r

/-- The loss as the reference adds it: over the 10000 × 5 table whose cell (c, p) is row 5c + p. -/
theorem loss_eq_table :
    loss A P N = ∑ c : Fin 10000, ∑ p : Fin 5, hinge A P N ⟨p.val + 5 * c.val, by have := p.isLt; have := c.isLt; omega⟩ := by
  unfold loss
  exact Cert.BlockSum.sum_blocks 10000 5 (fun k : Fin (10000 * 5) => hinge A P N k)

/-- The sum of the 1000 hinge terms of block `i` (rows 1000 i … 1000 i + 999). -/
def blockSum (i : Fin 50) : EReal :=
  ∑ q : Fin 1000, hinge A P N ⟨q.val + 1000 * i.val, by have := q.isLt; have := i.isLt; omega⟩

/-- The loss as the kernel adds it: every cell (a, b) of the 400 × 128 array holds the sum of block a / 8 scaled by
    2⁻¹⁰; the 1024 cells of a block's tile add up to the block's sum, and the 50 block sums to the loss. -/
theorem loss_eq_cells :
    (∑ a : Fin 400, ∑ _b : Fin 128, blockSum A P N ⟨a.val / 8, by have := a.isLt; omega⟩ * scale) = loss A P N := by
  have h1 : ∀ a : Fin 400, (∑ _b : Fin 128, blockSum A P N ⟨a.val / 8, by have := a.isLt; omega⟩ * scale)
      = (128 : ℕ) • (blockSum A P N ⟨a.val / 8, by have := a.isLt; omega⟩ * scale) := fun a => by
    rw [Finset.sum_const, Finset.card_univ, Fintype.card_fin]
  rw [Finset.sum_congr rfl fun a _ => h1 a]
  rw [Cert.BlockSum.sum_blocks 50 8 (fun a : Fin (50 * 8) =>
    (128 : ℕ) • (blockSum A P N ⟨a.val / 8, by have := a.isLt; omega⟩ * scale))]
  have h2 : ∀ i : Fin 50, (∑ s : Fin 8, (128 : ℕ) • (blockSum A P N
      ⟨(finProdFinEquiv (i, s)).val / 8, by have := (finProdFinEquiv (i, s)).isLt; omega⟩ * scale)) = blockSum A P N i := fun i => by
    have h3 : ∀ s : Fin 8, (⟨(finProdFinEquiv (i, s)).val / 8, by have := (finProdFinEquiv (i, s)).isLt; omega⟩ : Fin 50) = i :=
      fun s => Fin.ext (by
        show (finProdFinEquiv (i, s)).val / 8 = i.val
        rw [Cert.BlockSum.finProdFinEquiv_val]; have := s.isLt; omega)
    rw [Finset.sum_congr rfl fun s _ => by rw [h3 s]]
    rw [Finset.sum_const, Finset.card_univ, Fintype.card_fin, smul_smul]
    exact scale_law _
  rw [Finset.sum_congr rfl fun i _ => h2 i]
  unfold loss blockSum
  exact (Cert.BlockSum.sum_blocks 50 1000 (fun k : Fin (50 * 1000) => hinge A P N k)).symm

end Cert.Triplet

end
-- ==== Proof.RefSide.lean ====
/-
  The reference's result is the loss.

  Read one operation at a time, cell (c, p) of the reference's 10000 × 5 table is the hinge term of negative row
  5c + p: the reshape of the negatives to [10000, 5, 2400] puts row 5c + p at (c, p, ·), the anchor is broadcast
  along both leading axes, and the positive distances are broadcast along the table's rows. The final reduction
  adds all 50000 cells to a zero initial value.
-/
import proofs.«116871_j14851996910048_2_alg».proof.Proof.Gen.ReferenceIdeal.Read
import proofs.«116871_j14851996910048_2_alg».proof.Proof.Spec

noncomputable section

open scoped BigOperators

namespace Cert.Triplet.Ref

open Cert.ReferenceIdeal Cert.ReferenceIdeal.Read Idealize.ShloMosaic Idealize.ShloMosaic.ValueIdx Cert.Triplet

variable (x0 : (⟨S1x2400, .f32⟩ : BufTy).Contents (Elt Ideal)) (x1 : (⟨S5x2400, .f32⟩ : BufTy).Contents (Elt Ideal))
  (x2 : (⟨S50000x2400, .f32⟩ : BufTy).Contents (Elt Ideal))

/-- Entry `p` of the reference's vector of positive distances. -/
theorem v6_apply (p : Fin 5) : val_main_v6 (F := Ideal) x0 x1 (ix1 p) = dap x0 x1 p := by
  rw [val_main_v6_apply, val_main_v5_apply]
  have e0 : ∀ k : Fin 2400, idx_main_v0 (idx_main_v5 (ix1 p) k) = ix2 (0 : Fin 1) k := fun k =>
    funext fun a => Fin.ext (by match a with | ⟨0, _⟩ => rfl | ⟨1, _⟩ => rfl)
  have e1 : ∀ k : Fin 2400, idx_main_v5 (ix1 p) k = ix2 p k := fun k =>
    funext fun a => Fin.ext (by match a with | ⟨0, _⟩ => rfl | ⟨1, _⟩ => rfl)
  simp only [val_main_v4_apply, val_main_v3_apply, val_main_v1_apply, val_main_v0_apply, val_main_v2_apply,
    val_main_cst_apply, val_main_cst_0_apply, Ideal.hostUnary_sqrt_def, Ideal.addf_def, Ideal.subf_def, Ideal.mulf_def,
    Ideal.ofBits_def, Ideal.ofBits_zero_f32, zero_add, e0, e1]
  rfl

/-- Cell (c, p) of the reference's table of hinge terms is the term of negative row 5c + p. -/
theorem v21_apply (c : Fin 10000) (p : Fin 5) :
    val_main_v21 (F := Ideal) x0 x1 x2 (ix2 c p)
      = hinge x0 x1 x2 ⟨p.val + 5 * c.val, by have := p.isLt; have := c.isLt; omega⟩ := by
  rw [val_main_v21_apply, val_main_v20_apply, val_main_v18_apply, val_main_v17_apply, val_main_v16_apply,
    val_main_v15_apply, val_main_v14_apply, val_main_v19_apply, val_main_call0_v0_apply]
  have e16 : idx_main_v16 (idx_main_v17 (ix2 c p)) = ix1 p :=
    funext fun a => Fin.ext (by match a with | ⟨0, _⟩ => rfl)
  have e8 : ∀ k : Fin 2400, idx_main_v8 (idx_main_v9 (idx_main_v14 (ix2 c p) k)) = ix2 (0 : Fin 1) k := fun k =>
    funext fun a => Fin.ext (by match a with | ⟨0, _⟩ => rfl | ⟨1, _⟩ => rfl)
  have e7 : ∀ k : Fin 2400, idx_main_v7 (idx_main_v14 (ix2 c p) k)
      = ix2 (⟨p.val + 5 * c.val, by have := p.isLt; have := c.isLt; omega⟩ : Fin 50000) k := fun k =>
    funext fun a => Fin.ext (by
      have hp := p.isLt; have hc := c.isLt; have hk := k.isLt
      match a with
      | ⟨0, _⟩ => show ((c.val * 5 + p.val) * 2400 + k.val) / 2400 = p.val + 5 * c.val; omega
      | ⟨1, _⟩ => show ((c.val * 5 + p.val) * 2400 + k.val) % 2400 = k.val; omega)
  have ep : (⟨(p.val + 5 * c.val) % 5, Nat.mod_lt _ (by decide)⟩ : Fin 5) = p := Fin.ext (by
    show (p.val + 5 * c.val) % 5 = p.val; have := p.isLt; omega)
  rw [e16, v6_apply]
  simp only [val_main_v13_apply, val_main_v12_apply, val_main_v10_apply, val_main_v9_apply, val_main_v8_apply,
    val_main_v7_apply, val_main_v11_apply, val_main_cst_1_apply, val_main_cst_2_apply, val_main_cst_3_apply,
    val_main_call0_cst_apply, Ideal.hostUnary_sqrt_def, Ideal.addf_def, Ideal.subf_def, Ideal.mulf_def,
    Ideal.maximumf_def, Ideal.ofBits_def, Ideal.ofBits_zero_f32, zero_add, e8, e7]
  unfold hinge
  rw [ep]
  rfl

/-- The reference's result, at its one index, is the loss. -/
theorem value : val_main_v22 (F := Ideal) x0 x1 x2 = fun _ => loss x0 x1 x2 := by
  funext i
  rw [val_main_v22_apply, val_main_cst_4_apply, Ideal.ofBits_def, Ideal.ofBits_zero_f32, zero_add, sum_idx2, loss_eq_table]
  exact Finset.sum_congr rfl fun c _ => Finset.sum_congr rfl fun p _ => v21_apply x0 x1 x2 c p

end Cert.Triplet.Ref

end
-- ==== Proof.KernelBody.lean ====
/-
  What the kernel body stores, read at a cell.

  On a block of 1000 negative rows `x1`, with the anchor row `x0` and the block's column `x2` of positive
  distances, the body forms for each row q the hinge value max (x2 q − √ Σ_d (x0 d − x1 q d + ε)² + 1) 0, adds the
  1000 values, and stores that one number times 2⁻¹⁰ in every cell of its 8 × 128 tile. The reductions keep
  their dimension as a unit axis; the lemmas of the first section read those unit-axis layouts at an index.
-/
import proofs.«116871_j14851996910048_2_alg».proof.Proof.Gen.KernelIdeal.Skeleton
import proofs.«116871_j14851996910048_2_alg».proof.Proof.Spec
import Idealize.ShloMosaic.Lib.Pipeline.Value
import Idealize.ShloMosaic.Lib.ValueLayout
import Idealize.ShloMosaic.PureOps.Ideal.Laws

noncomputable section

open scoped BigOperators

namespace Cert.Triplet.Body

open Cert.KernelIdeal Cert.KernelIdeal.Gen Idealize.ShloMosaic Idealize.ShloMosaic.ValueIdx Cert.Triplet

/-! ## Unit-axis layouts read at an index -/

/-- A sum along the rows of a 1000 × 2400 block, read at row `r`, is the sum over that row's 2400 entries. -/
theorem rowSum_apply (src : FVec Ideal S1000x2400 .f32) (h : S1000x2400.Reduces [1] S1000) (hφ : FKind.Formats .f32)
    (hacc : (0x00000000#32 : BitVec 32) = 0x00000000#32) (r : Fin 1000) :
    multiReduction .add [1] S1000 src 0x00000000#32 h hφ hacc (ix1 r) = ∑ d : Fin 2400, src (ix2 r d) :=
  (Ideal.multiReduction_add_single src 0x00000000#32 h hφ hacc (ix1 r)).trans
    (Finset.sum_congr rfl fun d _ => congrArg src (funext fun c => Fin.ext (by
      match c with | ⟨0, _⟩ => rfl | ⟨1, _⟩ => rfl)))

/-- A sum down the one column of a 1000 × 1 block is the sum of its 1000 entries. -/
theorem colSum_apply (src : FVec Ideal S1000x1 .f32) (h : S1000x1.Reduces [0] S1) (hφ : FKind.Formats .f32)
    (hacc : (0x00000000#32 : BitVec 32) = 0x00000000#32) :
    multiReduction .add [0] S1 src 0x00000000#32 h hφ hacc (ix1 (0 : Fin 1)) = ∑ q : Fin 1000, src (ix2 q (0 : Fin 1)) :=
  (Ideal.multiReduction_add_single src 0x00000000#32 h hφ hacc (ix1 (0 : Fin 1))).trans
    (Finset.sum_congr rfl fun q _ => congrArg src (funext fun c => Fin.ext (by
      match c with | ⟨0, _⟩ => rfl | ⟨1, _⟩ => rfl)))

/-- A vector of 1000 entries viewed as a column: entry (r, 0) is entry r. -/
theorem column_apply {α : Type} (v : S1000.Idx → α) (h : S1000.ShapeCasts S1000x1) (r : Fin 1000) :
    shapeCast S1000x1 v h (ix2 r (0 : Fin 1)) = v (ix1 r) :=
  shapeCast_apply v h (ix2 r (0 : Fin 1)) (ix1 r) (by
    rw [Shape.rowMajor_val_one, Shape.rowMajor_val_two]; show r.val = r.val * 1 + 0; omega)

/-- A one-entry vector viewed as a 1 × 1 array. -/
theorem single_apply {α : Type} (v : S1.Idx → α) (h : S1.ShapeCasts S1x1) :
    shapeCast S1x1 v h (ix2 (0 : Fin 1) (0 : Fin 1)) = v (ix1 (0 : Fin 1)) :=
  shapeCast_apply v h (ix2 (0 : Fin 1) (0 : Fin 1)) (ix1 (0 : Fin 1)) (by
    rw [Shape.rowMajor_val_one, Shape.rowMajor_val_two]; rfl)

/-- A 1 × 1 array broadcast over an 8 × 128 tile reads its one entry everywhere. -/
theorem tile_apply {α : Type} (v : S1x1.Idx → α) (h : S1x1.Broadcasts S8x128) (a : Fin 8) (b : Fin 128) :
    broadcastTo S8x128 v h (ix2 a b) = v (ix2 (0 : Fin 1) (0 : Fin 1)) :=
  broadcastTo_apply v h (ix2 a b) (ix2 (0 : Fin 1) (0 : Fin 1)) fun ax => by
    match ax with
    | ⟨0, _⟩ => show 0 = if (1 : Nat) = 1 then 0 else _; rw [if_pos rfl]
    | ⟨1, _⟩ => show 0 = if (1 : Nat) = 1 then 0 else _; rw [if_pos rfl]

/-! ## The stored value -/

/-- The number a block contributes: the sum over its 1000 rows of the hinge values. -/
def blockVal (x0 : S1x2400.Idx → EReal) (x1 : S1000x2400.Idx → EReal) (x2 : S1000x1.Idx → EReal) : EReal :=
  ∑ q : Fin 1000, max (x2 (ix2 q (0 : Fin 1))
    - Ideal.sqrt (∑ d : Fin 2400, (x0 (ix2 (0 : Fin 1) d) - x1 (ix2 q d) + eps) * (x0 (ix2 (0 : Fin 1) d) - x1 (ix2 q d) + eps))
    + margin) 0

/-- Every cell of the stored tile is the block's number times 2⁻¹⁰. -/
theorem pay_apply (x0 : Vec Ideal S1x2400 .f32) (x1 : Vec Ideal S1000x2400 .f32) (x2 : Vec Ideal S1000x1 .f32)
    (a : Fin 8) (b : Fin 128) :
    k0_pay1 (F := Ideal) x0 x1 x2 (ix2 a b) = blockVal x0 x1 x2 * scale := by
  unfold k0_pay1
  dsimp only
  refine (mulf_apply _ _ _).trans ?_
  refine congrArg₂ (· * ·) ?_ rfl
  refine (tile_apply _ _ a b).trans ?_
  refine (congrFun (shapeCast_self _ _) _).trans ?_
  refine (single_apply _ _).trans ?_
  refine (colSum_apply _ _ _ _).trans ?_
  unfold blockVal
  refine Finset.sum_congr rfl fun q _ => ?_
  refine (maximumf_apply _ _ _).trans ?_
  refine congrArg₂ max ?_ Ideal.ofBits_zero_f32
  refine (addf_apply _ _ _).trans ?_
  refine congrArg₂ (· + ·) ?_ rfl
  refine (subf_apply _ _ _).trans ?_
  refine congrArg₂ (· - ·) (congrFun (shapeCast_self _ _) _) ?_
  refine congrArg Ideal.sqrt ?_
  refine (column_apply _ _ q).trans ?_
  refine (rowSum_apply _ _ _ _ q).trans ?_
  refine Finset.sum_congr rfl fun d _ => ?_
  have e : (addf (subf (broadcastTo S1000x2400 x0 broadcasts_S1x2400_S1000x2400) x1)
      (broadcast S1000x2400 (FloatOps.ofBits (F := Ideal) FTy.f32 0x358637BD#32))) (ix2 q d)
      = x0 (ix2 (0 : Fin 1) d) - x1 (ix2 q d) + eps := by
    refine (addf_apply _ _ _).trans ?_
    refine congrArg₂ (· + ·) ?_ rfl
    refine (subf_apply _ _ _).trans ?_
    exact congrArg (· - x1 (ix2 q d)) (broadcastTo_1b_ab_apply x0 _ q d)
  exact (mulf_apply _ _ _).trans (congrArg₂ (· * ·) e e)

end Cert.Triplet.Body

end
-- ==== Proof.KernelArray.lean ====
/-
  The kernel's output array after the run, as one function of the arrays the region finds.

  Grid point t stages rows 1000 t … 1000 t + 999 of the negatives and of the column of positive distances, the
  whole anchor row, and writes tile t (rows 8 t … 8 t + 7) of the 400 × 128 output. So cell (a, b) of the output
  holds the number of block a / 8 scaled by 2⁻¹⁰; the 50 tiles cover the array.
-/
import proofs.«116871_j14851996910048_2_alg».proof.Proof.Gen.KernelIdeal.Frame
import proofs.«116871_j14851996910048_2_alg».proof.Proof.KernelBody
import Idealize.ShloMosaic.Lib.Pipeline.Value

noncomputable section

open scoped BigOperators

namespace Cert.Triplet.Arr

open Cert.KernelIdeal Cert.KernelIdeal.Gen Idealize.ShloMosaic Idealize.ShloMosaic.TcCoe Idealize.SL.Sem
open Idealize.ShloMosaic.ValueIdx Cert.Triplet Cert.Triplet.Body
open Idealize.ShloMosaic.Pipeline (Dat)

/-- The number of block `i` (rows 1000 i … 1000 i + 999 of the negatives `N` and of the column `D`), scaled. -/
def cellVal (A : S1x2400.Idx → EReal) (N : S50000x2400.Idx → EReal) (D : S50000x1.Idx → EReal) (i : Fin 50) : EReal :=
  (∑ q : Fin 1000, max (D (ix2 (⟨q.val + 1000 * i.val, by have := q.isLt; have := i.isLt; omega⟩ : Fin 50000) (0 : Fin 1))
    - Ideal.sqrt (∑ d : Fin 2400,
        (A (ix2 (0 : Fin 1) d) - N (ix2 (⟨q.val + 1000 * i.val, by have := q.isLt; have := i.isLt; omega⟩ : Fin 50000) d) + eps)
        * (A (ix2 (0 : Fin 1) d) - N (ix2 (⟨q.val + 1000 * i.val, by have := q.isLt; have := i.isLt; omega⟩ : Fin 50000) d) + eps))
    + margin) 0) * scale

/-- The output array: cell (a, b) holds the scaled number of block a / 8. -/
def outArr (A : S1x2400.Idx → EReal) (N : S50000x2400.Idx → EReal) (D : S50000x1.Idx → EReal) : S400x128.Idx → EReal :=
  fun j => cellVal A N D ⟨(j 0).val / 8, by have := idx2_lt0 j; omega⟩

variable (m : (ℓ : Loc nD τ sig) → Buf (Elt Ideal) ℓ)

theorem zeros : (![0, 0] : Fin 2 → Nat) = fun _ => 0 := funext fun a => by fin_cases a <;> rfl

/-- The printed index maps over the 50 grid points: the anchor's window stays at block (0, 0); the other three
    windows are at block (t, 0) at point t. -/
theorem index_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 50 := by
  have h : t.val < cfg0.N := t.isLt
  have e : cfg0.N = 50 := N_0
  omega

/-- The anchor's block at any point is the anchor row. -/
theorem anchor_read (c : Dev nD) (t : Fin cfg0.N) (d : Fin 2400) :
    iblk m c 0 t (ix2 (0 : Fin 1) d) = V m c main_arg0 (ix2 (0 : Fin 1) d) := by
  obtain ⟨e0, e1, -⟩ := index_facts t
  show V m c main_arg0 (((cfg0.win 0).blk t).view.emb (ix2 (0 : Fin 1) d)) = V m c main_arg0 (ix2 (0 : Fin 1) d)
  refine congrArg (V m c main_arg0) (funext fun a => Fin.ext ?_)
  match a with
  | ⟨0, _⟩ => show win0_0.index t (0 : Fin 2) * 1 + 1 * 0 = 0; omega
  | ⟨1, _⟩ => show win0_0.index t (1 : Fin 2) * 2400 + 1 * d.val = d.val; omega

/-- Row q of the negatives' block at point t is row 1000 t + q of the negatives. -/
theorem neg_read (c : Dev nD) (t : Fin cfg0.N) (q : Fin 1000) (d : Fin 2400) :
    iblk m c 1 t (ix2 q d)
      = V m c main_arg2 (ix2 (⟨q.val + 1000 * t.val, by have := q.isLt; have := point_lt t; omega⟩ : Fin 50000) d) := by
  obtain ⟨-, -, e0, e1, -⟩ := index_facts t
  show V m c main_arg2 (((cfg0.win 1).blk t).view.emb (ix2 q d)) = _
  refine congrArg (V m c main_arg2) (funext fun a => Fin.ext ?_)
  match a with
  | ⟨0, _⟩ => show win0_1.index t (0 : Fin 2) * 1000 + 1 * q.val = q.val + 1000 * t.val; omega
  | ⟨1, _⟩ => show win0_1.index t (1 : Fin 2) * 2400 + 1 * d.val = d.val; omega

/-- Entry q of the distance column's block at point t is entry 1000 t + q of the column. -/
theorem col_read (c : Dev nD) (t : Fin cfg0.N) (q : Fin 1000) :
    iblk m c 2 t (ix2 q (0 : Fin 1))
      = V m c main_v10 (ix2 (⟨q.val + 1000 * t.val, by have := q.isLt; have := point_lt t; omega⟩ : Fin 50000) (0 : Fin 1)) := by
  obtain ⟨-, -, -, -, e0, e1, -⟩ := index_facts t
  show V m c main_v10 (((cfg0.win 2).blk t).view.emb (ix2 q (0 : Fin 1))) = _
  refine congrArg (V m c main_v10) (funext fun a => Fin.ext ?_)
  match a with
  | ⟨0, _⟩ => show win0_2.index t (0 : Fin 2) * 1000 + 1 * q.val = q.val + 1000 * t.val; omega
  | ⟨1, _⟩ => show win0_2.index t (1 : Fin 2) * 1 + 1 * 0 = 0; omega

/-- The block's number, from the blocks staged at point t, is the number of block t of the arrays. -/
theorem blockVal_at (c : Dev nD) (t : Fin cfg0.N) :
    blockVal (iblk m c 0 t) (iblk m c 1 t) (iblk m c 2 t) * scale
      = cellVal (V m c main_arg0) (V m c main_arg2) (V m c main_v10) ⟨t.val, point_lt t⟩ := by
  unfold blockVal cellVal
  refine congrArg (· * scale) (Finset.sum_congr rfl fun q _ => ?_)
  rw [col_read m c t q]
  refine congrArg (fun s => max (_ - Ideal.sqrt s + margin) 0) (Finset.sum_congr rfl fun d _ => ?_)
  rw [anchor_read m c t d, neg_read m c t q d]

/-- What point t writes back is tile t of the output array. -/
theorem flushed_eq (c : Dev nD) (t : Fin cfg0.N) :
    (dats m 0 c).flushed 3 t
      = ((cfg0.win 3).blk t).view.read (Elt Ideal) (outArr (V m c main_arg0) (V m c main_arg2) (V m c main_v10)) := by
  show (cfg0.win 3).cut (grid0.coords t) ((dats m 0 c).after 3 t) = _
  rw [after0_3]
  unfold out0_3
  rw [View.canon_unit_zero zeros]
  simp only [View.ld_unit_zero (S := S1x2400) zeros, View.ld_unit_zero (S := S1000x2400) zeros,
    View.ld_unit_zero (S := S1000x1) zeros]
  obtain ⟨-, -, -, -, -, -, e0, e1⟩ := index_facts t
  funext j
  obtain ⟨a, b, rfl⟩ : ∃ (a : Fin 8) (b : Fin 128), j = ix2 a b := ⟨j 0, j 1, eq_ix2 j⟩
  show k0_pay1 (iblk m c 0 t) (iblk m c 1 t) (iblk m c 2 t) (ix2 a b)
    = outArr (V m c main_arg0) (V m c main_arg2) (V m c main_v10) (((cfg0.win 3).blk t).view.emb (ix2 a b))
  refine (pay_apply (iblk m c 0 t) (iblk m c 1 t) (iblk m c 2 t) a b).trans ?_
  refine (blockVal_at m c t).trans ?_
  unfold outArr
  refine congrArg (cellVal (V m c main_arg0) (V m c main_arg2) (V m c main_v10)) (Fin.ext ?_)
  show t.val = (win0_3.index t (0 : Fin 2) * 8 + 1 * a.val) / 8
  have := a.isLt
  omega

/-- An index of the output array is in point t's tile iff each coordinate is in the tile's range. -/
theorem mem_tile (t : Fin cfg0.N) (i : S400x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v11).slice (win0_3.rect t)).set ↔ _
  rw [View.set_slice_whole, Rect.mem_set_unit]
  exact Iff.rfl

/-- Every index of the output array is in the tile of the point its row falls in. -/
theorem cover (i : S400x128.Idx) :
    ∃ t : Fin cfg0.N, (cfg0.win 3).flush t = true ∧ i ∈ ((cfg0.win 3).blk t).view.set := by
  have h0 : (i 0).val < 400 := idx2_lt0 i
  have h1 : (i 1).val < 128 := idx2_lt1 i
  have hN : cfg0.N = 50 := N_0
  refine ⟨⟨(i 0).val / 8, by rw [hN]; omega⟩, flush0_3 _, ?_⟩
  rw [mem_tile]
  obtain ⟨-, -, -, -, -, -, e0, e1⟩ := index_facts ⟨(i 0).val / 8, by rw [hN]; omega⟩
  intro a
  match a with
  | ⟨0, _⟩ =>
    show win0_3.index _ (0 : Fin 2) * 8 ≤ (i 0).val ∧ (i 0).val < win0_3.index _ (0 : Fin 2) * 8 + 8
    rw [e0]; show (i 0).val / 8 * 8 ≤ (i 0).val ∧ (i 0).val < (i 0).val / 8 * 8 + 8; omega
  | ⟨1, _⟩ =>
    show win0_3.index _ (1 : Fin 2) * 128 ≤ (i 1).val ∧ (i 1).val < win0_3.index _ (1 : Fin 2) * 128 + 128
    rw [e1]; omega

/-- The output array after the run. -/
theorem final (c : Dev nD) :
    (dats m 0 c).arrAt 3 cfg0.N = outArr (V m c main_arg0) (V m c main_arg2) (V m c main_v10) :=
  (dats m 0 c).arrAt_eq_of_cover 3 _ (fun t _ => flushed_eq m c t) cover

end Cert.Triplet.Arr

end
-- ==== Proof.HostPrefix.lean ====
/-
  The column of positive distances the kernel is launched on.

  Before the region the host computes the five positive distances exactly as the reference does, lays them out as
  one row [1, 5], repeats that row 10000 times, and flattens the [10000, 5] table row-major into a column of 50000
  entries. Entry r of the column is therefore the distance to positive row r mod 5.
-/
import proofs.«116871_j14851996910048_2_alg».proof.Proof.Gen.KernelIdeal.Frame
import proofs.«116871_j14851996910048_2_alg».proof.Proof.RefSide
import Idealize.ShloMosaic.Lib.Pipeline.Value
import Idealize.ShloMosaic.Lib.StableHlo.Run

noncomputable section

open scoped BigOperators

namespace Cert.Triplet.Prefix

open Cert.KernelIdeal Cert.KernelIdeal.Gen Idealize.ShloMosaic Idealize.ShloMosaic.TcCoe Idealize.SL.Sem
open Idealize.ShloMosaic.ValueIdx Cert.Triplet Idealize.ShloMosaic.StableHlo

variable (m : (ℓ : Loc nD τ sig) → Buf (Elt Ideal) ℓ)

/-- The row-major layout of a vector of five distances as a column of 50000 entries, read at entry r. -/
theorem tiled_apply (v : S5.Idx → EReal) (r : Fin 50000) :
    shapeCast S50000x1 (shapeCast S50000 (broadcastInDim S10000x5 ![0, 1] bcast_S1x5_S10000x5_0_1
      (shapeCast S1x5 v shapeCasts_S5_S1x5)) shapeCasts_S10000x5_S50000) shapeCasts_S50000_S50000x1 (ix2 r (0 : Fin 1))
      = v (ix1 (⟨r.val % 5, Nat.mod_lt _ (by decide)⟩ : Fin 5)) := by
  have hr := r.isLt
  refine (shapeCast_apply _ shapeCasts_S50000_S50000x1 (ix2 r (0 : Fin 1)) (ix1 r) (by
    rw [Shape.rowMajor_val_one, Shape.rowMajor_val_two]; show r.val = r.val * 1 + 0; omega)).trans ?_
  refine (shapeCast_apply _ shapeCasts_S10000x5_S50000 (ix1 r)
    (ix2 (⟨r.val / 5, by omega⟩ : Fin 10000) (⟨r.val % 5, Nat.mod_lt _ (by decide)⟩ : Fin 5)) (by
    rw [Shape.rowMajor_val_one, Shape.rowMajor_val_two]; show r.val / 5 * 5 + r.val % 5 = r.val; omega)).trans ?_
  refine (broadcastInDim_apply _ bcast_S1x5_S10000x5_0_1 _ _
    (ix2 (0 : Fin 1) (⟨r.val % 5, Nat.mod_lt _ (by decide)⟩ : Fin 5)) (fun a => by
      match a with
      | ⟨0, _⟩ => show 0 = if (1 : Nat) = 1 then 0 else _; rw [if_pos rfl]
      | ⟨1, _⟩ => show r.val % 5 = if (5 : Nat) = 1 then 0 else r.val % 5; rw [if_neg (by decide)])).trans ?_
  exact shapeCast_apply v shapeCasts_S5_S1x5 _ (ix1 (⟨r.val % 5, Nat.mod_lt _ (by decide)⟩ : Fin 5)) (by
    rw [Shape.rowMajor_val_one, Shape.rowMajor_val_two]; show r.val % 5 = 0 * 5 + r.val % 5; omega)

/-- The column the region finds is that layout of the reference's own vector of positive distances. -/
theorem column_eq (c : Dev nD) :
    (V m c main_v10 : S50000x1.Idx → EReal)
      = shapeCast S50000x1 (shapeCast S50000 (broadcastInDim S10000x5 ![0, 1] bcast_S1x5_S10000x5_0_1
          (shapeCast S1x5 (Cert.ReferenceIdeal.Read.val_main_v6 (F := Ideal)
            (m ((c.tc : Thread nD τ).loc main_arg0)) (m ((c.tc : Thread nD τ).loc main_arg1))) shapeCasts_S5_S1x5))
          shapeCasts_S10000x5_S50000) shapeCasts_S50000_S50000x1 := by
  show StableHlo.after hostOps0 (fun b => m (c, b)) (Proc.devRef .tc main_v10) = _
  after_results
  rfl

/-- Entry r of the column is the anchor's distance to positive row r mod 5. -/
theorem column_apply (c : Dev nD) (r : Fin 50000) :
    V m c main_v10 (ix2 r (0 : Fin 1))
      = dap (m ((c.tc : Thread nD τ).loc main_arg0)) (m ((c.tc : Thread nD τ).loc main_arg1))
          ⟨r.val % 5, Nat.mod_lt _ (by decide)⟩ := by
  rw [column_eq m c]
  refine (tiled_apply _ r).trans ?_
  exact Cert.Triplet.Ref.v6_apply _ _ _

end Cert.Triplet.Prefix

end
-- ==== Proof.KernelValue.lean ====
/-
  The kernel's result is the loss.

  After the region the host adds all 400 × 128 cells of the output array to a zero initial value. Every cell of
  tile i holds block i's sum of hinge terms scaled by 2⁻¹⁰, with the column of positive distances and the two
  argument arrays as the region found them; so the total is the loss.
-/
import proofs.«116871_j14851996910048_2_alg».proof.Proof.Gen.KernelIdeal.Frame
import proofs.«116871_j14851996910048_2_alg».proof.Proof.KernelArray
import proofs.«116871_j14851996910048_2_alg».proof.Proof.HostPrefix
import Idealize.ShloMosaic.Lib.StableHlo.Run
import Idealize.ShloMosaic.PureOps.Ideal.Laws

noncomputable section

open scoped BigOperators

namespace Cert.Triplet.Result

open Cert.KernelIdeal Cert.KernelIdeal.Gen Idealize.ShloMosaic Idealize.ShloMosaic.TcCoe Idealize.SL.Sem
open Idealize.ShloMosaic.ValueIdx Cert.Triplet Cert.Triplet.Arr Idealize.ShloMosaic.StableHlo

variable (m : (ℓ : Loc nD τ sig) → Buf (Elt Ideal) ℓ)

/-- The result buffer after the host's last line: the sum of the output array's cells from zero. -/
theorem tail_eq (c : Dev nD) :
    Pipeline.afterTail₀ cfgs (dats m) 0 (V0 m) [hostOps1] c main_v12
      = Host.reduceAdd (F := Ideal) ((dats m 0 c).arrAt 3 cfg0.N) (constant (F := Ideal) S_ .f32 0x00000000#32)
          reducesTo_S400x128_S_d0_1 h_S_ := by
  unfold Pipeline.afterTail₀
  show StableHlo.after hostOps1 _ (Proc.devRef .tc main_v12) = _
  after_results
  have e : Pipeline.withArrays (cfgs 0).spec c (V0 m c) (fun w => (dats m 0 c).arrAt w (cfgs 0).N)
      (Proc.tc.devRef main_v11) = (dats m 0 c).arrAt 3 cfg0.N :=
    Pipeline.withArrays_arr spec0 launch0.win.arr_inj c _ _ 3
  rw [e]

/-- The scaled number of block i, over the arrays the region finds, is the scaled sum of block i's hinge terms. -/
theorem cell_eq (c : Dev nD) (i : Fin 50) :
    cellVal (V m c main_arg0) (V m c main_arg2) (V m c main_v10) i
      = blockSum (m ((c.tc : Thread nD τ).loc main_arg0)) (m ((c.tc : Thread nD τ).loc main_arg1))
          (m ((c.tc : Thread nD τ).loc main_arg2)) i * scale := by
  unfold cellVal blockSum
  refine congrArg (· * scale) (Finset.sum_congr rfl fun q _ => ?_)
  rw [Cert.Triplet.Prefix.column_apply m c, V_main_arg0 m c, V_main_arg2 m c]
  rfl

/-- The kernel's result, at its one index, is the loss. -/
theorem result_eq (c : Dev nD) :
    Pipeline.afterTail₀ cfgs (dats m) 0 (V0 m) [hostOps1] c main_v12
      = fun _ => loss (m ((c.tc : Thread nD τ).loc main_arg0)) (m ((c.tc : Thread nD τ).loc main_arg1))
          (m ((c.tc : Thread nD τ).loc main_arg2)) := by
  rw [tail_eq, Arr.final]
  funext i
  simp only [Host.reduceAdd, Ideal.hostReduceAdd_def]
  refine (Ideal.hostReduceAdd_total reducesTo_S400x128_S_d0_1 (fun b => b.elim0) _ _ i).trans ?_
  rw [show (constant (F := Ideal) S_ .f32 0x00000000#32) (Shape.Idx.first h_S_) = 0 from Ideal.ofBits_zero_f32, zero_add,
    sum_idx2, ← loss_eq_cells]
  exact Finset.sum_congr rfl fun a _ => Finset.sum_congr rfl fun b _ => cell_eq m c _

/-- The kernel program's run: the result buffer ends at the loss of the argument arrays, which end unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v12)
        = (fun _ => loss (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v12 (Pipeline.mem_restRefs_of main_v12 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.Triplet.Result

end
-- ==== Proof.lean ====
/-
  A triplet-margin loss: the kernel and its reference compute one number.

  For an anchor row A, five positive rows P and 50000 negative rows N of 2400 columns, with the shift ε added to
  every difference, both programs compute

      loss = Σ_r max (dap (r mod 5) − dan r + 1) 0,     dap p = √ Σ_d (A d − P p d + ε)²,  dan r = √ Σ_d (A d − N r d + ε)².

  The reference reshapes the negatives to [10000, 5, 2400], forms the 10000 × 5 table of hinge terms (cell (c, p)
  is row 5c + p) and adds it up. The kernel's host code computes the five positive distances by the same
  operations and tiles them into a column of 50000 entries (entry r is dap (r mod 5)); the kernel proper adds the
  hinge terms of 1000 consecutive rows per grid point and writes that sum times 2⁻¹⁰ into all 8 × 128 cells of the
  point's output tile; the host then adds all 400 × 128 cells. At the extended reals 1024 copies of x · 2⁻¹⁰ add
  up to x for every x, and regrouping a finite sum needs only commutativity and associativity, so both results are
  the loss whatever the inputs: the finiteness precondition is not used.

  Modules: Spec (the loss and its two regroupings), RefSide (the reference's result is the loss), KernelBody (the
  stored tile read at a cell), KernelArray (the output array after the run), HostPrefix (the column of positive
  distances), KernelValue (the kernel program's result is the loss). The ideal pass rewrote nothing, so the kernel's
  idealization is its own text and `preserves` is trivial.
-/
import proofs.«116871_j14851996910048_2_alg».proof.Defs
import proofs.«116871_j14851996910048_2_alg».proof.Proof.Gen.Kernel
import proofs.«116871_j14851996910048_2_alg».proof.Proof.Gen.Kernel.Skeleton
import proofs.«116871_j14851996910048_2_alg».proof.Proof.Gen.Kernel.Launch
import proofs.«116871_j14851996910048_2_alg».proof.Proof.Gen.Kernel.Points
import proofs.«116871_j14851996910048_2_alg».proof.Proof.Gen.Kernel.Frame
import proofs.«116871_j14851996910048_2_alg».proof.Proof.Gen.KernelIdeal
import proofs.«116871_j14851996910048_2_alg».proof.Proof.Gen.KernelIdeal.Skeleton
import proofs.«116871_j14851996910048_2_alg».proof.Proof.Gen.KernelIdeal.Launch
import proofs.«116871_j14851996910048_2_alg».proof.Proof.Gen.KernelIdeal.Points
import proofs.«116871_j14851996910048_2_alg».proof.Proof.Gen.KernelIdeal.Frame
import proofs.«116871_j14851996910048_2_alg».proof.Proof.Gen.ReferenceIdeal
import proofs.«116871_j14851996910048_2_alg».proof.Proof.Gen.Pre_finite_inputs
import proofs.«116871_j14851996910048_2_alg».proof.Proof.Gen.ReferenceIdeal.Run
import proofs.«116871_j14851996910048_2_alg».proof.Proof.Gen.ReferenceIdeal.Read
import proofs.«116871_j14851996910048_2_alg».proof.Proof.RefSide
import proofs.«116871_j14851996910048_2_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the three arguments both programs end with the loss of those arguments. -/
theorem algebraic : Cert.algebraic_KernelIdeal_ReferenceIdeal := by
  intro m ρ m' ρ' _ hagree
  refine ⟨fun c => fun _ => Cert.Triplet.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Triplet.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq _ _ _).trans ?_
  rw [Cert.Triplet.Ref.value, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
